-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S100000x128, .f32⟩
  | .hbm, ⟨68, _⟩ => ⟨S128x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel's program run from the launch to the return, with its result array named.

  The program is four segments: the host operations before the first layer, the first layer's grid, the host
  operations between the layers, the second layer's grid. The buffer contents at each boundary are a fold from the
  launch memory; at the end every unscoped buffer holds the last fold's contents. Read at the result's buffer this is
  what the second grid's write-backs leave of it; read at an argument's buffer it is the launch contents, because no
  segment writes an argument.
-/
import proofs.«142617_j52561809768660_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer at the
    contents the last segment boundary's fold gives it. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result array and the arguments named: the result is what the second grid's write-backs
    leave of its output array, and every argument array ends as launched. -/
theorem run_result : θ_run defs (onTc (τ := τ) (main (F := F))) ⟨m, fun _ => 0, ρ⟩ (fun r => ∀ c : Dev nD,
      r.2.mem ((c.tc : Thread nD τ).loc main_v40) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨(h c _ (mem_uc main_v40 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_fold m ρ)

end Cert.KernelIdeal.ValueRun

end
-- ==== Proof.SageLayer.lean ====
/-
  One layer of a mean-aggregating graph convolution, entry by entry, on the extended reals.

  A layer takes the neighbour sums `agg` (one row per node), the per-node reciprocal in-degree `inv` (one column),
  the node features `h`, two weight matrices already laid out input-feature × output-feature, and a bias row. Its
  entry at node `p` and output feature `j` is

      Σ_k (agg p k · inv p) · wl k j  +  Σ_k h p k · wr k j  +  b j,

  clipped below at zero when the layer is followed by the rectifier. The number of nodes is a parameter, so that
  the same formula speaks of a block of rows and of the whole array.
-/
import Idealize.ShloMosaic.Lib.ValueIdx
import Idealize.ShloMosaic.PureOps.Ideal

noncomputable section

namespace Cert.Sage

open Idealize.ShloMosaic Idealize.ShloMosaic.ValueIdx
open scoped BigOperators

/-- The entry of a layer at node `p`, output feature `j`, before the rectifier. -/
def entry {n : ℕ} (agg : (⟨2, ![n, 128]⟩ : Shape).Idx → EReal) (inv : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) (p : Fin n) (j : Fin 128) : EReal :=
  (∑ k : Fin 128, (agg (ix2 p k) * inv (ix2 p (0 : Fin 1))) * wl (ix2 k j))
    + (∑ k : Fin 128, h (ix2 p k) * wr (ix2 k j)) + b (ix2 (0 : Fin 1) j)

/-- A layer as an array: `entry` at every index, clipped below at zero when `relu`. -/
def layer (relu : Bool) {n : ℕ} (agg : (⟨2, ![n, 128]⟩ : Shape).Idx → EReal) (inv : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => if relu then max (entry agg inv h wl wr b (i 0) (i 1)) 0 else entry agg inv h wl wr b (i 0) (i 1)

theorem layer_true_apply {n : ℕ} (agg : (⟨2, ![n, 128]⟩ : Shape).Idx → EReal) (inv : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) (p : Fin n) (j : Fin 128) :
    layer true agg inv h wl wr b (ix2 p j) = max (entry agg inv h wl wr b p j) 0 := rfl

theorem layer_false_apply {n : ℕ} (agg : (⟨2, ![n, 128]⟩ : Shape).Idx → EReal) (inv : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal) (p : Fin n) (j : Fin 128) :
    layer false agg inv h wl wr b (ix2 p j) = entry agg inv h wl wr b p j := rfl

/-- Two entries whose ingredients agree term by term are equal: the rows of neighbour sums and of features, the
    node's reciprocal in-degree, the two weight columns and the bias. -/
theorem entry_congr {n n' : ℕ}
    (agg : (⟨2, ![n, 128]⟩ : Shape).Idx → EReal) (inv : (⟨2, ![n, 1]⟩ : Shape).Idx → EReal)
    (h : (⟨2, ![n, 128]⟩ : Shape).Idx → EReal) (wl wr : (⟨2, ![128, 128]⟩ : Shape).Idx → EReal)
    (b : (⟨2, ![1, 128]⟩ : Shape).Idx → EReal)
    (agg' : (⟨2, ![n', 128]⟩ : Shape).Idx → EReal) (inv' : (⟨2, ![n', 1]⟩ : Shape).Idx → EReal)
    (h' : (⟨2, ![n', 128]⟩ : Shape).Idx → EReal) (wl' wr' : (⟨2, ![128, 128]⟩ : Shape).Idx → EReal)
    (b' : (⟨2, ![1, 128]⟩ : Shape).Idx → EReal) (p : Fin n) (p' : Fin n') (j : Fin 128)
    (ha : ∀ k : Fin 128, agg (ix2 p k) = agg' (ix2 p' k)) (hi : inv (ix2 p (0 : Fin 1)) = inv' (ix2 p' (0 : Fin 1)))
    (hh : ∀ k : Fin 128, h (ix2 p k) = h' (ix2 p' k)) (hwl : wl = wl') (hwr : wr = wr') (hb : b = b') :
    entry agg inv h wl wr b p j = entry agg' inv' h' wl' wr' b' p' j := by
  subst hwl hwr hb
  unfold entry
  rw [hi]
  simp only [ha, hh]

end Cert.Sage

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelPayload.lean ====
/-
  What one grid point of either kernel computes, entry by entry.

  Each kernel body loads a block of 5000 rows of the neighbour sums, of the reciprocal in-degrees and of the node
  features, the two whole weight matrices and the bias row, and stores one block of 5000 output rows. At the exact
  instance the two roundings to bf16 are the identity and each product into a zero accumulator is the plain sum over
  the 128 input features, so the stored block is the layer's formula of the loaded blocks — with the rectifier in the
  first kernel, without it in the second.
-/
import proofs.«142617_j52561809768660_1_alg».proof.Proof.Gen.KernelIdeal.Skeleton
import proofs.«142617_j52561809768660_1_alg».proof.Proof.SageLayer
import proofs.«142617_j52561809768660_1_alg».proof.Proof.LibMatmul2d
import proofs.«142617_j52561809768660_1_alg».proof.Proof.LibRowwise
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen
open scoped BigOperators

/-- The printed product's dimension record is the plain rows-by-columns one. -/
theorem dot_eq : dot_S5000x128_S128x128_S5000x128_1_0_0_1_n_n = DotDims.plain 5000 128 128 := rfl

/-- The first kernel's stored block at row `r`, feature `j`: the layer's entry of the loaded blocks, clipped at zero. -/
theorem pay0_apply (x0 : Vec Ideal S5000x128 .f32) (x1 : Vec Ideal S5000x1 .f32) (x2 : Vec Ideal S5000x128 .f32)
    (x3 x4 : Vec Ideal S128x128 .f32) (x5 : Vec Ideal S1x128 .f32) (r : Fin 5000) (j : Fin 128) :
    k0_pay1 (F := Ideal) x0 x1 x2 x3 x4 x5 (ix2 r j) = max (Cert.Sage.entry x0 x1 x2 x3 x4 x5 r j) 0 := by
  have hzero : (FloatOps.ofBits (F := Ideal) .f32 0x00000000#32) = (0 : EReal) := Ideal.ofBits_zero_f32
  unfold k0_pay1 Cert.Sage.entry
  simp only [Idealize.ShloMosaic.matmul, dot_eq]
  rw [maximumf_apply, addf_apply, addf_apply, Cert.LibMatmul2d.matmul_plain_apply,
    Cert.LibMatmul2d.matmul_plain_apply, broadcastTo_1b_ab_apply, broadcast_apply, hzero]
  simp only [truncf_apply, mulf_apply, shapeCast_self, Cert.LibRowwise.broadcastTo_a1_ab_apply]

/-- The second kernel's stored block at row `r`, feature `j`: the layer's entry of the loaded blocks. -/
theorem pay1_apply (x0 : Vec Ideal S5000x128 .f32) (x1 : Vec Ideal S5000x1 .f32) (x2 : Vec Ideal S5000x128 .f32)
    (x3 x4 : Vec Ideal S128x128 .f32) (x5 : Vec Ideal S1x128 .f32) (r : Fin 5000) (j : Fin 128) :
    k1_pay1 (F := Ideal) x0 x1 x2 x3 x4 x5 (ix2 r j) = Cert.Sage.entry x0 x1 x2 x3 x4 x5 r j := by
  unfold k1_pay1 Cert.Sage.entry
  simp only [Idealize.ShloMosaic.matmul, dot_eq]
  rw [addf_apply, addf_apply, Cert.LibMatmul2d.matmul_plain_apply,
    Cert.LibMatmul2d.matmul_plain_apply, broadcastTo_1b_ab_apply]
  simp only [truncf_apply, mulf_apply, shapeCast_self, Cert.LibRowwise.broadcastTo_a1_ab_apply]

end Cert.KernelIdeal.Payload

end
-- ==== Proof.KernelBlocks0.lean ====
/-
  The first layer's grid, from blocks to the whole array.

  The grid has twenty points; point `t` reads rows 5000·t … 5000·t + 4999 of the neighbour sums, of the reciprocal
  in-degrees and of the features, the whole of the two weight matrices and of the bias row, and writes back the same
  rows of the output. So what point `t` writes back is block `t` of ONE array — the rectified layer of the arrays as
  the grid finds them — and the twenty blocks tile the output: after the grid the output array is that layer.
  Everything here is stated for arbitrary entry contents `V`.
-/
import proofs.«142617_j52561809768660_1_alg».proof.Proof.Gen.KernelIdeal.Frame
import proofs.«142617_j52561809768660_1_alg».proof.Proof.KernelPayload

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block `t`, the resident ones at block 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node whose row is row `r` of block `t`. -/
def node (t : Fin cfg0.N) (r : Fin 5000) : Fin 100000 :=
  ⟨t.val * 5000 + r.val, by have h : t.val < 20 := t.isLt; have := r.isLt; omega⟩

/-- Entry (r, j) of the output's block `t` is entry (node t r, j) of the output array. -/
theorem emb_out (t : Fin cfg0.N) (r : Fin 5000) (j : Fin 128) :
    ((cfg0.win 6).blk t).view.emb (ix2 r j) = (ix2 (node t r) j : S100000x128.Idx) := by
  obtain ⟨-, -, -, -, -, -, -, -, -, -, -, -, e0, e1⟩ := idx t
  funext a; apply Fin.ext
  match a with
  | ⟨0, _⟩ => show win0_6.index t (0 : Fin 2) * 5000 + 1 * r.val = t.val * 5000 + r.val; rw [e0]; omega
  | ⟨1, _⟩ => show win0_6.index t (1 : Fin 2) * 128 + 1 * j.val = j.val; rw [e1]; omega

/-- The neighbour sums' block at a point: rows of the array. -/
theorem read_agg (c : Dev nD) (t : Fin cfg0.N) (r : Fin 5000) (k : Fin 128) :
    iblk0 V c 0 t (ix2 r k) = V c main_v22 (ix2 (node t r) k) := by
  obtain ⟨e0, e1, -⟩ := idx t
  show V c main_v22 (((cfg0.win 0).blk t).view.emb (ix2 r k)) = V c main_v22 (ix2 (node t r) k)
  refine congrArg (V c main_v22) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The reciprocal in-degrees' block at a point. -/
theorem read_inv (c : Dev nD) (t : Fin cfg0.N) (r : Fin 5000) :
    iblk0 V c 1 t (ix2 r (0 : Fin 1)) = V c main_v12 (ix2 (node t r) (0 : Fin 1)) := by
  obtain ⟨-, -, e0, e1, -⟩ := idx t
  show V c main_v12 (((cfg0.win 1).blk t).view.emb (ix2 r (0 : Fin 1))) = V c main_v12 (ix2 (node t r) (0 : Fin 1))
  refine congrArg (V c main_v12) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 1 + 1 * 0 = 0; rw [e1]

/-- The features' block at a point. -/
theorem read_feat (c : Dev nD) (t : Fin cfg0.N) (r : Fin 5000) (k : Fin 128) :
    iblk0 V c 2 t (ix2 r k) = V c main_arg0 (ix2 (node t r) k) := by
  obtain ⟨-, -, -, -, e0, e1, -⟩ := idx t
  show V c main_arg0 (((cfg0.win 2).blk t).view.emb (ix2 r k)) = V c main_arg0 (ix2 (node t r) k)
  refine congrArg (V c main_arg0) (funext fun a => Fin.ext ?_)
  match a with
  | ⟨0, _⟩ => show win0_2.index t (0 : Fin 2) * 5000 + 1 * r.val = t.val * 5000 + r.val; rw [e0]; omega
  | ⟨1, _⟩ => show win0_2.index t (1 : Fin 2) * 128 + 1 * k.val = k.val; rw [e1]; omega

/-- The resident windows' one block is the whole array. -/
theorem read_wl (c : Dev nD) (t : Fin cfg0.N) : iblk0 V c 3 t = V c main_v23 := by
  obtain ⟨-, -, -, -, -, -, e0, e1, -⟩ := idx t
  funext y
  show V c main_v23 (((cfg0.win 3).blk t).view.emb y) = V c main_v23 y
  refine congrArg (V c main_v23) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem read_wr (c : Dev nD) (t : Fin cfg0.N) : iblk0 V c 4 t = V c main_v24 := by
  obtain ⟨-, -, -, -, -, -, -, -, e0, e1, -⟩ := idx t
  funext y
  show V c main_v24 (((cfg0.win 4).blk t).view.emb y) = V c main_v24 y
  refine congrArg (V c main_v24) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem read_bias (c : Dev nD) (t : Fin cfg0.N) : iblk0 V c 5 t = V c main_v25 := by
  obtain ⟨-, -, -, -, -, -, -, -, -, -, e0, e1, -⟩ := idx t
  funext y
  show V c main_v25 (((cfg0.win 5).blk t).view.emb y) = V c main_v25 y
  refine congrArg (V c main_v25) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The layer of the arrays as the grid finds them. -/
abbrev whole (c : Dev nD) : S100000x128.Idx → EReal :=
  Cert.Sage.layer true (n := 100000) (V c main_v22) (V c main_v12) (V c main_arg0) (V c main_v23) (V c main_v24) (V c main_v25)

/-- What point `t` writes back is block `t` of the layer. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero origin]
  simp only [View.ld_unit_zero (S := S5000x128) origin, View.ld_unit_zero (S := S5000x1) origin,
    View.ld_unit_zero (S := S128x128) origin, View.ld_unit_zero (S := S1x128) origin]
  refine funext fun (y : S5000x128.Idx) => ?_
  obtain ⟨r, j, rfl⟩ : ∃ (r : Fin 5000) (j : Fin 128), y = ix2 r j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 r j)
    = whole V c (((cfg0.win 6).blk t).view.emb (ix2 r j))
  rw [emb_out t r j]
  refine (Cert.KernelIdeal.Payload.pay0_apply (iblk0 V c 0 t) (iblk0 V c 1 t) (iblk0 V c 2 t) (iblk0 V c 3 t) (iblk0 V c 4 t) (iblk0 V c 5 t) r j).trans ?_
  show _ = max (Cert.Sage.entry (n := 100000) (V c main_v22) (V c main_v12) (V c main_arg0) (V c main_v23) (V c main_v24) (V c main_v25) (node t r) j) 0
  refine congrArg (fun z : EReal => max z 0) ?_
  exact Cert.Sage.entry_congr (n := 5000) (n' := 100000) (iblk0 V c 0 t) (iblk0 V c 1 t) (iblk0 V c 2 t) (iblk0 V c 3 t) (iblk0 V c 4 t) (iblk0 V c 5 t)
    (V c main_v22) (V c main_v12) (V c main_arg0) (V c main_v23) (V c main_v24) (V c main_v25) r (node t r) j
    (fun k => read_agg V c t r k) (read_inv V c t r) (fun k => read_feat V c t r k) (read_wl V c t) (read_wr V c t) (read_bias V c t)

/-- An index of the output array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- Every index of the output array lies in the block of the point its row falls in. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < 20 := by omega
  obtain ⟨-, -, -, -, -, -, -, -, -, -, -, -, e0, e1⟩ := idx (⟨(i 0).val / 5000, ht⟩ : Fin cfg0.N)
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e1]; omega

/-- After the grid the output array is the rectified layer of the arrays as the grid found them. -/
theorem final (c : Dev nD) : (dat0 V c).arrAt 6 cfg0.N = whole V c :=
  (dat0 V c).arrAt_eq_of_cover 6 (whole V c) (fun t _ => flushed_eq V c t) cover

end Cert.KernelIdeal.Blocks0

end
-- ==== Proof.KernelBlocks1.lean ====
/-
  The second layer's grid, from blocks to the whole array.

  The same tiling as the first layer's: twenty points, point `t` reading rows 5000·t … 5000·t + 4999 of ITS neighbour
  sums, of the reciprocal in-degrees and of the first layer's output, the whole of its two weight matrices and of its
  bias row, and writing back the same rows of the result. There is no rectifier here: what point `t` writes back is
  block `t` of the plain layer of the arrays as the grid finds them, and after the grid the result array is that layer.
  Everything here is stated for arbitrary entry contents `V`.
-/
import proofs.«142617_j52561809768660_1_alg».proof.Proof.Gen.KernelIdeal.Frame
import proofs.«142617_j52561809768660_1_alg».proof.Proof.KernelPayload

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row windows sit at block `t`, the resident ones at block 0. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The node whose row is row `r` of block `t`. -/
def node (t : Fin cfg1.N) (r : Fin 5000) : Fin 100000 :=
  ⟨t.val * 5000 + r.val, by have h : t.val < 20 := t.isLt; have := r.isLt; omega⟩

/-- Entry (r, j) of the output's block `t` is entry (node t r, j) of the output array. -/
theorem emb_out (t : Fin cfg1.N) (r : Fin 5000) (j : Fin 128) :
    ((cfg1.win 6).blk t).view.emb (ix2 r j) = (ix2 (node t r) j : S100000x128.Idx) := by
  obtain ⟨-, -, -, -, -, -, -, -, -, -, -, -, e0, e1⟩ := idx t
  funext a; apply Fin.ext
  match a with
  | ⟨0, _⟩ => show win1_6.index t (0 : Fin 2) * 5000 + 1 * r.val = t.val * 5000 + r.val; rw [e0]; omega
  | ⟨1, _⟩ => show win1_6.index t (1 : Fin 2) * 128 + 1 * j.val = j.val; rw [e1]; omega

/-- The neighbour sums' block at a point: rows of the array. -/
theorem read_agg (c : Dev nD) (t : Fin cfg1.N) (r : Fin 5000) (k : Fin 128) :
    iblk1 V c 0 t (ix2 r k) = V c main_v36 (ix2 (node t r) k) := by
  obtain ⟨e0, e1, -⟩ := idx t
  show V c main_v36 (((cfg1.win 0).blk t).view.emb (ix2 r k)) = V c main_v36 (ix2 (node t r) k)
  refine congrArg (V c main_v36) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The reciprocal in-degrees' block at a point. -/
theorem read_inv (c : Dev nD) (t : Fin cfg1.N) (r : Fin 5000) :
    iblk1 V c 1 t (ix2 r (0 : Fin 1)) = V c main_v12 (ix2 (node t r) (0 : Fin 1)) := by
  obtain ⟨-, -, e0, e1, -⟩ := idx t
  show V c main_v12 (((cfg1.win 1).blk t).view.emb (ix2 r (0 : Fin 1))) = V c main_v12 (ix2 (node t r) (0 : Fin 1))
  refine congrArg (V c main_v12) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 1 + 1 * 0 = 0; rw [e1]

/-- The first layer's output, block at a point. -/
theorem read_feat (c : Dev nD) (t : Fin cfg1.N) (r : Fin 5000) (k : Fin 128) :
    iblk1 V c 2 t (ix2 r k) = V c main_v26 (ix2 (node t r) k) := by
  obtain ⟨-, -, -, -, e0, e1, -⟩ := idx t
  show V c main_v26 (((cfg1.win 2).blk t).view.emb (ix2 r k)) = V c main_v26 (ix2 (node t r) k)
  refine congrArg (V c main_v26) (funext fun a => Fin.ext ?_)
  match a with
  | ⟨0, _⟩ => show win1_2.index t (0 : Fin 2) * 5000 + 1 * r.val = t.val * 5000 + r.val; rw [e0]; omega
  | ⟨1, _⟩ => show win1_2.index t (1 : Fin 2) * 128 + 1 * k.val = k.val; rw [e1]; omega

/-- The resident windows' one block is the whole array. -/
theorem read_wl (c : Dev nD) (t : Fin cfg1.N) : iblk1 V c 3 t = V c main_v37 := by
  obtain ⟨-, -, -, -, -, -, e0, e1, -⟩ := idx t
  funext y
  show V c main_v37 (((cfg1.win 3).blk t).view.emb y) = V c main_v37 y
  refine congrArg (V c main_v37) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem read_wr (c : Dev nD) (t : Fin cfg1.N) : iblk1 V c 4 t = V c main_v38 := by
  obtain ⟨-, -, -, -, -, -, -, -, e0, e1, -⟩ := idx t
  funext y
  show V c main_v38 (((cfg1.win 4).blk t).view.emb y) = V c main_v38 y
  refine congrArg (V c main_v38) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem read_bias (c : Dev nD) (t : Fin cfg1.N) : iblk1 V c 5 t = V c main_v39 := by
  obtain ⟨-, -, -, -, -, -, -, -, -, -, e0, e1, -⟩ := idx t
  funext y
  show V c main_v39 (((cfg1.win 5).blk t).view.emb y) = V c main_v39 y
  refine congrArg (V c main_v39) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The layer of the arrays as the grid finds them. -/
abbrev whole (c : Dev nD) : S100000x128.Idx → EReal :=
  Cert.Sage.layer false (n := 100000) (V c main_v36) (V c main_v12) (V c main_v26) (V c main_v37) (V c main_v38) (V c main_v39)

/-- What point `t` writes back is block `t` of the layer. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero origin]
  simp only [View.ld_unit_zero (S := S5000x128) origin, View.ld_unit_zero (S := S5000x1) origin,
    View.ld_unit_zero (S := S128x128) origin, View.ld_unit_zero (S := S1x128) origin]
  refine funext fun (y : S5000x128.Idx) => ?_
  obtain ⟨r, j, rfl⟩ : ∃ (r : Fin 5000) (j : Fin 128), y = ix2 r j := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 r j)
    = whole V c (((cfg1.win 6).blk t).view.emb (ix2 r j))
  rw [emb_out t r j]
  refine (Cert.KernelIdeal.Payload.pay1_apply (iblk1 V c 0 t) (iblk1 V c 1 t) (iblk1 V c 2 t) (iblk1 V c 3 t) (iblk1 V c 4 t) (iblk1 V c 5 t) r j).trans ?_
  show _ = Cert.Sage.entry (n := 100000) (V c main_v36) (V c main_v12) (V c main_v26) (V c main_v37) (V c main_v38) (V c main_v39) (node t r) j
  exact Cert.Sage.entry_congr (n := 5000) (n' := 100000) (iblk1 V c 0 t) (iblk1 V c 1 t) (iblk1 V c 2 t) (iblk1 V c 3 t) (iblk1 V c 4 t) (iblk1 V c 5 t)
    (V c main_v36) (V c main_v12) (V c main_v26) (V c main_v37) (V c main_v38) (V c main_v39) r (node t r) j
    (fun k => read_agg V c t r k) (read_inv V c t r) (fun k => read_feat V c t r k) (read_wl V c t) (read_wr V c t) (read_bias V c t)

/-- An index of the output array is in point `t`'s block iff each coordinate is in the block's range. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v40).slice (win1_6.rect t)).set ↔ _
  rw [View.set_slice_whole, Rect.mem_set_unit]
  exact Iff.rfl

/-- Every index of the output array lies in the block of the point its row falls in. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have ht : (i 0).val / 5000 < 20 := by omega
  obtain ⟨-, -, -, -, -, -, -, -, -, -, -, -, e0, e1⟩ := idx (⟨(i 0).val / 5000, ht⟩ : Fin cfg1.N)
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e1]; omega

/-- After the grid the result array is the layer of the arrays as the grid found them. -/
theorem final (c : Dev nD) : (dat1 V c).arrAt 6 cfg1.N = whole V c :=
  (dat1 V c).arrAt_eq_of_cover 6 (whole V c) (fun t _ => flushed_eq V c t) cover

end Cert.KernelIdeal.Blocks1

end
-- ==== Proof.RefAggregate.lean ====
/-
  The aggregation both programs share, carried as one function.

  Both programs compute the neighbour sums the same way — gather the feature rows of the edges' sources (a negative
  source index wrapped once by the number of nodes), scatter-add them at the edges' destinations into a zero array.
  Those host operations are never opened here: `neighbourSum` is a function of the two index vectors and a feature
  array, and the reference's two aggregation stages are that function of its source and destination vectors.
-/
import proofs.«142617_j52561809768660_1_alg».proof.Proof.Gen.ReferenceIdeal.Read

set_option maxRecDepth 16384

noncomputable section

namespace Cert.ReferenceIdeal.Layers

open Cert.ReferenceIdeal Cert.ReferenceIdeal.Gen Cert.ReferenceIdeal.Read Idealize.ShloMosaic

/-- The neighbour sums of a feature array `h`: rows of `h` gathered at the edges' sources `src` (a negative index
    wrapped once by the number of nodes) and scatter-added at the edges' destinations `dst` into zeros. -/
def neighbourSum (src dst : (⟨S1600000, .i32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The first layer's neighbour sums in the reference. -/
theorem agg1_eq (x0 : (⟨S100000x128, .f32⟩ : BufTy).Contents (Elt Ideal)) (x1 : (⟨S2x1600000, .i32⟩ : BufTy).Contents (Elt Ideal)) :
    val_main_v22 (F := Ideal) x0 x1 = neighbourSum (val_main_v1 (F := Ideal) x1) (val_main_v3 (F := Ideal) x1) x0 := by
  unfold val_main_v22 val_main_v19 val_main_v20 val_main_cst_4 val_main_v21 val_main_v18 val_main_v17 val_main_v14 val_main_v16
    val_main_v13 val_main_c val_main_v15 val_main_c_3 neighbourSum
  generalize val_main_v1 (F := Ideal) x1 = src
  generalize val_main_v3 (F := Ideal) x1 = dst
  rfl

/-- The second layer's neighbour sums in the reference: the same aggregation of the first layer's output. -/
theorem agg2_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v43 (F := Ideal) x0 x1 x2 x3 x4
      = neighbourSum (val_main_v1 (F := Ideal) x1) (val_main_v3 (F := Ideal) x1) (val_main_v33 (F := Ideal) x0 x1 x2 x3 x4) := by
  unfold val_main_v43 val_main_v40 val_main_v41 val_main_cst_7 val_main_v42 val_main_v39 val_main_v38 val_main_v35 val_main_v37
    val_main_v34 val_main_c_5 val_main_v36 val_main_c_6 neighbourSum
  generalize val_main_v1 (F := Ideal) x1 = src
  generalize val_main_v3 (F := Ideal) x1 = dst
  generalize val_main_v33 (F := Ideal) x0 x1 x2 x3 x4 = h
  rfl

end Cert.ReferenceIdeal.Layers

end
-- ==== Proof.NetTerm.lean ====
/-
  The network as one term of the arguments.

  The first layer's output `hidden` is the rectified layer of the neighbour sums of the input features; the network's
  output `net` is the plain layer of the neighbour sums of `hidden`, with `hidden` as its features. Weights enter
  transposed and each bias as one row, as the reference lays them out.
-/
import proofs.«142617_j52561809768660_1_alg».proof.Proof.RefAggregate
import proofs.«142617_j52561809768660_1_alg».proof.Proof.SageLayer

set_option maxRecDepth 16384

noncomputable section

namespace Cert.ReferenceIdeal.Layers

open Cert.ReferenceIdeal Cert.ReferenceIdeal.Gen Cert.ReferenceIdeal.Read Idealize.ShloMosaic Idealize.ShloMosaic.ValueIdx

/-- The first layer's output, as a function of the arguments. -/
def hidden (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    (⟨S100000x128, .f32⟩ : BufTy).Contents (Elt Ideal) :=
  Cert.Sage.layer true (n := 100000) (neighbourSum (val_main_v1 (F := Ideal) x1) (val_main_v3 (F := Ideal) x1) x0)
    (val_main_v12 (F := Ideal) x1) x0 (val_main_v25 (F := Ideal) x2) (val_main_v27 (F := Ideal) x3) (val_main_v30 (F := Ideal) x4)

/-- The network's output, as a function of the arguments. -/
def net (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    (⟨S100000x128, .f32⟩ : BufTy).Contents (Elt Ideal) :=
  Cert.Sage.layer false (n := 100000)
    (neighbourSum (val_main_v1 (F := Ideal) x1) (val_main_v3 (F := Ideal) x1) (hidden x0 x1 x2 x3 x4))
    (val_main_v12 (F := Ideal) x1) (hidden x0 x1 x2 x3 x4) (val_main_v46 (F := Ideal) x5) (val_main_v48 (F := Ideal) x6)
    (val_main_v51 (F := Ideal) x7)

end Cert.ReferenceIdeal.Layers

end
-- ==== Proof.KernelValue.lean ====
/-
  The kernel's result array as a function of the arguments.

  Reading the buffer contents at the segment boundaries back to the launch memory:

  * when the first grid starts, its seven arrays hold the neighbour sums of the input features, the reciprocal
    in-degrees, the input features, the two transposed first-layer weights and the first bias as one row — each the
    host operations' term of the arguments;
  * the first grid leaves its output at the rectified layer of those (the first layer's output) and everything else
    as it was;
  * when the second grid starts, its arrays hold the neighbour sums OF THE FIRST LAYER'S OUTPUT, the same reciprocal
    in-degrees, the first layer's output, the transposed second-layer weights and the second bias row;
  * the second grid leaves the result at the layer of those.

  So the result is the network `net` of the arguments — the very term the reference's result is. The bias reaches the
  kernel as a reshape of the vector to one row and the reference as a broadcast to one row: the same row.
-/
import proofs.«142617_j52561809768660_1_alg».proof.Proof.KernelBlocks0
import proofs.«142617_j52561809768660_1_alg».proof.Proof.KernelBlocks1
import proofs.«142617_j52561809768660_1_alg».proof.Proof.NetTerm
import Idealize.ShloMosaic.Lib.StableHlo.Run
import Idealize.ShloMosaic.Lib.ValueLayout

set_option maxRecDepth 16384

noncomputable section

namespace Cert.KernelIdeal.NetValue

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The bias row -/

/-- A vector reshaped to one row is the vector broadcast to one row. -/
theorem biasRow_eq (x : (⟨Cert.ReferenceIdeal.S128, .f32⟩ : BufTy).Contents (Elt Ideal))
    (h : (⟨1, ![128]⟩ : Shape).ShapeCasts ⟨2, ![1, 128]⟩) :
    shapeCast ⟨2, ![1, 128]⟩ x h = Cert.ReferenceIdeal.Read.val_main_v30 (F := Ideal) x := by
  funext i
  obtain ⟨u, j, rfl⟩ : ∃ (u : Fin 1) (j : Fin 128), i = ix2 u j := ⟨i 0, i 1, eq_ix2 i⟩
  rw [shapeCast_a_1a_apply, Cert.ReferenceIdeal.Read.val_main_v30_apply]
  exact congrArg x (funext fun a => Fin.ext (by match a with | ⟨0, _⟩ => rfl))

theorem biasRow_eq' (x : (⟨Cert.ReferenceIdeal.S128, .f32⟩ : BufTy).Contents (Elt Ideal))
    (h : (⟨1, ![128]⟩ : Shape).ShapeCasts ⟨2, ![1, 128]⟩) :
    shapeCast ⟨2, ![1, 128]⟩ x h = Cert.ReferenceIdeal.Read.val_main_v51 (F := Ideal) x := by
  funext i
  obtain ⟨u, j, rfl⟩ : ∃ (u : Fin 1) (j : Fin 128), i = ix2 u j := ⟨i 0, i 1, eq_ix2 i⟩
  rw [shapeCast_a_1a_apply, Cert.ReferenceIdeal.Read.val_main_v51_apply]
  exact congrArg x (funext fun a => Fin.ext (by match a with | ⟨0, _⟩ => rfl))

/-! ## The first grid's arrays, when it starts -/

theorem entry1_src (c : Dev nD) :
    V1 m ρ c main_v1 = Cert.ReferenceIdeal.Read.val_main_v1 (F := Ideal) (m ((c : Thread nD τ).loc main_arg1)) := by
  show StableHlo.after hostOps0 (W0 m ρ c) (Proc.devRef .tc main_v1) = _
  dsimp only [hostOps0]
  after_results_simp
  unfold Cert.ReferenceIdeal.Read.val_main_v1 Cert.ReferenceIdeal.Read.val_main_v0
  rfl

theorem entry1_dst (c : Dev nD) :
    V1 m ρ c main_v3 = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  unfold Cert.ReferenceIdeal.Read.val_main_v3 Cert.ReferenceIdeal.Read.val_main_v2
  rfl

theorem entry1_inv (c : Dev nD) :
    V1 m ρ c main_v12 = Cert.ReferenceIdeal.Read.val_main_v12 (F := Ideal) (m ((c : Thread nD τ).loc main_arg1)) := by
  show StableHlo.after hostOps0 (W0 m ρ c) (Proc.devRef .tc main_v12) = _
  dsimp only [hostOps0]
  after_results_simp
  unfold Cert.ReferenceIdeal.Read.val_main_v12 Cert.ReferenceIdeal.Read.val_main_v11 Cert.ReferenceIdeal.Read.val_main_v10 Cert.ReferenceIdeal.Read.val_main_cst_2 Cert.ReferenceIdeal.Read.val_main_v9 Cert.ReferenceIdeal.Read.val_main_v7 Cert.ReferenceIdeal.Read.val_main_v5 Cert.ReferenceIdeal.Read.val_main_cst_0 Cert.ReferenceIdeal.Read.val_main_v6 Cert.ReferenceIdeal.Read.val_main_v3 Cert.ReferenceIdeal.Read.val_main_v2 Cert.ReferenceIdeal.Read.val_main_v4 Cert.ReferenceIdeal.Read.val_main_cst Cert.ReferenceIdeal.Read.val_main_v8 Cert.ReferenceIdeal.Read.val_main_cst_1
  rfl

theorem entry1_agg (c : Dev nD) :
    V1 m ρ c main_v22 = Cert.ReferenceIdeal.Layers.neighbourSum
      (Cert.ReferenceIdeal.Read.val_main_v1 (F := Ideal) (m ((c : Thread nD τ).loc main_arg1)))
      (Cert.ReferenceIdeal.Read.val_main_v3 (F := Ideal) (m ((c : Thread nD τ).loc main_arg1)))
      (m ((c : Thread nD τ).loc main_arg0)) := by
  show StableHlo.after hostOps0 (W0 m ρ c) (Proc.devRef .tc main_v22) = _
  dsimp only [hostOps0]
  after_results_simp
  unfold Cert.ReferenceIdeal.Layers.neighbourSum Cert.ReferenceIdeal.Read.val_main_v1 Cert.ReferenceIdeal.Read.val_main_v0 Cert.ReferenceIdeal.Read.val_main_v3 Cert.ReferenceIdeal.Read.val_main_v2
  rfl

theorem entry1_feat (c : Dev nD) : V1 m ρ c main_arg0 = m ((c : Thread nD τ).loc main_arg0) := by
  show StableHlo.after hostOps0 (W0 m ρ c) (Proc.devRef .tc main_arg0) = _
  dsimp only [hostOps0]
  after_results_simp

theorem entry1_wl (c : Dev nD) :
    V1 m ρ c main_v23 = Cert.ReferenceIdeal.Read.val_main_v25 (F := Ideal) (m ((c : Thread nD τ).loc main_arg2)) := by
  show StableHlo.after hostOps0 (W0 m ρ c) (Proc.devRef .tc main_v23) = _
  dsimp only [hostOps0]
  after_results_simp
  unfold Cert.ReferenceIdeal.Read.val_main_v25
  rfl

theorem entry1_wr (c : Dev nD) :
    V1 m ρ c main_v24 = Cert.ReferenceIdeal.Read.val_main_v27 (F := Ideal) (m ((c : Thread nD τ).loc main_arg3)) := by
  show StableHlo.after hostOps0 (W0 m ρ c) (Proc.devRef .tc main_v24) = _
  dsimp only [hostOps0]
  after_results_simp
  unfold Cert.ReferenceIdeal.Read.val_main_v27
  rfl

theorem entry1_bias (c : Dev nD) :
    V1 m ρ c main_v25 = Cert.ReferenceIdeal.Read.val_main_v30 (F := Ideal) (m ((c : Thread nD τ).loc main_arg4)) := by
  show StableHlo.after hostOps0 (W0 m ρ c) (Proc.devRef .tc main_v25) = _
  dsimp only [hostOps0]
  after_results_simp
  exact biasRow_eq _ _

/-- The first grid leaves its output at the first layer's output. -/
theorem hidden_eq (c : Dev nD) :
    (dat0 (V1 m ρ) c).arrAt 6 cfg0.N = Cert.ReferenceIdeal.Layers.hidden (m ((c : Thread nD τ).loc main_arg0))
      (m ((c : Thread nD τ).loc main_arg1)) (m ((c : Thread nD τ).loc main_arg2)) (m ((c : Thread nD τ).loc main_arg3))
      (m ((c : Thread nD τ).loc main_arg4)) := by
  rw [Cert.KernelIdeal.Blocks0.final (V1 m ρ) c]
  unfold Cert.KernelIdeal.Blocks0.whole Cert.ReferenceIdeal.Layers.hidden
  rw [entry1_agg, entry1_inv, entry1_feat, entry1_wl, entry1_wr, entry1_bias]

/-! ## Through the first grid -/

/-- The first grid changes none of the buffers that are not its arrays, and leaves its input arrays as it found
    them: the source and destination vectors, the reciprocal in-degrees and the second layer's weights and bias pass
    through. -/
theorem pass_src (c : Dev nD) : W2 m ρ c (Proc.devRef .tc main_v1) = V1 m ρ c main_v1 :=
  W2_of_ne m ρ c main_v1 (by decide)

theorem pass_dst (c : Dev nD) : W2 m ρ c (Proc.devRef .tc main_v3) = V1 m ρ c main_v3 :=
  W2_of_ne m ρ c main_v3 (by decide)

theorem pass_inv (c : Dev nD) : W2 m ρ c (Proc.devRef .tc main_v12) = V1 m ρ c main_v12 :=
  (W2_arr m ρ c 1).trans (((dat0 (V1 m ρ) c).arrAt_in 1 rfl _).trans (A_eq0 (V1 m ρ) c 1))

theorem pass_hidden (c : Dev nD) :
    W2 m ρ c (Proc.devRef .tc main_v26) = Cert.ReferenceIdeal.Layers.hidden (m ((c : Thread nD τ).loc main_arg0))
      (m ((c : Thread nD τ).loc main_arg1)) (m ((c : Thread nD τ).loc main_arg2)) (m ((c : Thread nD τ).loc main_arg3))
      (m ((c : Thread nD τ).loc main_arg4)) :=
  (W2_arr m ρ c 6).trans (hidden_eq m ρ c)

theorem pass_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  dsimp only [hostOps0]
  after_results_simp

theorem pass_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  dsimp only [hostOps0]
  after_results_simp

theorem pass_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  dsimp only [hostOps0]
  after_results_simp

/-! ## The second grid's arrays, when it starts -/

theorem entry2_agg (c : Dev nD) :
    V3 m ρ c main_v36 = Cert.ReferenceIdeal.Layers.neighbourSum (W2 m ρ c (Proc.devRef .tc main_v1))
      (W2 m ρ c (Proc.devRef .tc main_v3)) (W2 m ρ c (Proc.devRef .tc main_v26)) := by
  show StableHlo.after hostOps1 (W2 m ρ c) (Proc.devRef .tc main_v36) = _
  dsimp only [hostOps1]
  after_results_simp
  unfold Cert.ReferenceIdeal.Layers.neighbourSum
  rfl

theorem entry2_inv (c : Dev nD) : V3 m ρ c main_v12 = W2 m ρ c (Proc.devRef .tc main_v12) := by
  show StableHlo.after hostOps1 (W2 m ρ c) (Proc.devRef .tc main_v12) = _
  dsimp only [hostOps1]
  after_results_simp

theorem entry2_feat (c : Dev nD) : V3 m ρ c main_v26 = W2 m ρ c (Proc.devRef .tc main_v26) := by
  show StableHlo.after hostOps1 (W2 m ρ c) (Proc.devRef .tc main_v26) = _
  dsimp only [hostOps1]
  after_results_simp

theorem entry2_wl (c : Dev nD) :
    V3 m ρ c main_v37 = Cert.ReferenceIdeal.Read.val_main_v46 (F := Ideal) (W2 m ρ c (Proc.devRef .tc main_arg5)) := by
  show StableHlo.after hostOps1 (W2 m ρ c) (Proc.devRef .tc main_v37) = _
  dsimp only [hostOps1]
  after_results_simp
  unfold Cert.ReferenceIdeal.Read.val_main_v46
  rfl

theorem entry2_wr (c : Dev nD) :
    V3 m ρ c main_v38 = Cert.ReferenceIdeal.Read.val_main_v48 (F := Ideal) (W2 m ρ c (Proc.devRef .tc main_arg6)) := by
  show StableHlo.after hostOps1 (W2 m ρ c) (Proc.devRef .tc main_v38) = _
  dsimp only [hostOps1]
  after_results_simp
  unfold Cert.ReferenceIdeal.Read.val_main_v48
  rfl

theorem entry2_bias (c : Dev nD) :
    V3 m ρ c main_v39 = Cert.ReferenceIdeal.Read.val_main_v51 (F := Ideal) (W2 m ρ c (Proc.devRef .tc main_arg7)) := by
  show StableHlo.after hostOps1 (W2 m ρ c) (Proc.devRef .tc main_v39) = _
  dsimp only [hostOps1]
  after_results_simp
  exact biasRow_eq' _ _

/-! ## The result -/

/-- What the second grid leaves of its output array is the network of the arguments. -/
theorem result_eq (c : Dev nD) :
    (dat1 (V3 m ρ) c).arrAt 6 cfg1.N = Cert.ReferenceIdeal.Layers.net (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  rw [Cert.KernelIdeal.Blocks1.final (V3 m ρ) c]
  unfold Cert.KernelIdeal.Blocks1.whole Cert.ReferenceIdeal.Layers.net
  rw [entry2_agg, entry2_inv, entry2_feat, entry2_wl, entry2_wr, entry2_bias, pass_src, pass_dst, pass_inv, pass_hidden,
    pass_arg5, pass_arg6, pass_arg7, entry1_src, entry1_dst, entry1_inv]

end Cert.KernelIdeal.NetValue

end
-- ==== Proof.RefLayers.lean ====
/-
  The reference's two layers, entry by entry.

  Apart from the aggregation, each layer of the reference is a product with the reciprocal in-degree broadcast along
  the rows, two matrix products with transposed weights, their sum, the bias broadcast down the rows, and (first layer
  only) the rectifier. Read index by index through the printed operations' own index maps, that is the layer's
  formula of the layer's ingredients.
-/
import proofs.«142617_j52561809768660_1_alg».proof.Proof.Gen.ReferenceIdeal.Read
import proofs.«142617_j52561809768660_1_alg».proof.Proof.SageLayer

set_option maxRecDepth 16384

noncomputable section

namespace Cert.ReferenceIdeal.Layers

open Cert.ReferenceIdeal Cert.ReferenceIdeal.Gen Cert.ReferenceIdeal.Read Idealize.ShloMosaic Idealize.ShloMosaic.ValueIdx
open scoped BigOperators

/-! ## Index maps of the printed operations, by coordinates -/

theorem lidx26 (p : Fin 100000) (j k : Fin 128) : lidx_main_v26 (ix2 p j) k = ix2 p k :=
  funext fun a => Fin.ext (by match a with | ⟨0, _⟩ => rfl | ⟨1, _⟩ => rfl)
theorem ridx26 (p : Fin 100000) (j k : Fin 128) : ridx_main_v26 (ix2 p j) k = ix2 k j :=
  funext fun a => Fin.ext (by match a with | ⟨0, _⟩ => rfl | ⟨1, _⟩ => rfl)
theorem lidx28 (p : Fin 100000) (j k : Fin 128) : lidx_main_v28 (ix2 p j) k = ix2 p k :=
  funext fun a => Fin.ext (by match a with | ⟨0, _⟩ => rfl | ⟨1, _⟩ => rfl)
theorem ridx28 (p : Fin 100000) (j k : Fin 128) : ridx_main_v28 (ix2 p j) k = ix2 k j :=
  funext fun a => Fin.ext (by match a with | ⟨0, _⟩ => rfl | ⟨1, _⟩ => rfl)
theorem lidx47 (p : Fin 100000) (j k : Fin 128) : lidx_main_v47 (ix2 p j) k = ix2 p k :=
  funext fun a => Fin.ext (by match a with | ⟨0, _⟩ => rfl | ⟨1, _⟩ => rfl)
theorem ridx47 (p : Fin 100000) (j k : Fin 128) : ridx_main_v47 (ix2 p j) k = ix2 k j :=
  funext fun a => Fin.ext (by match a with | ⟨0, _⟩ => rfl | ⟨1, _⟩ => rfl)
theorem lidx49 (p : Fin 100000) (j k : Fin 128) : lidx_main_v49 (ix2 p j) k = ix2 p k :=
  funext fun a => Fin.ext (by match a with | ⟨0, _⟩ => rfl | ⟨1, _⟩ => rfl)
theorem ridx49 (p : Fin 100000) (j k : Fin 128) : ridx_main_v49 (ix2 p j) k = ix2 k j :=
  funext fun a => Fin.ext (by match a with | ⟨0, _⟩ => rfl | ⟨1, _⟩ => rfl)
theorem idx23 (p : Fin 100000) (k : Fin 128) : idx_main_v23 (ix2 p k) = ix2 p (0 : Fin 1) :=
  funext fun a => Fin.ext (by match a with | ⟨0, _⟩ => rfl | ⟨1, _⟩ => rfl)
theorem idx44 (p : Fin 100000) (k : Fin 128) : idx_main_v44 (ix2 p k) = ix2 p (0 : Fin 1) :=
  funext fun a => Fin.ext (by match a with | ⟨0, _⟩ => rfl | ⟨1, _⟩ => rfl)
theorem idx31 (p : Fin 100000) (j : Fin 128) : idx_main_v31 (ix2 p j) = ix2 (0 : Fin 1) j :=
  funext fun a => Fin.ext (by match a with | ⟨0, _⟩ => rfl | ⟨1, _⟩ => rfl)
theorem idx52 (p : Fin 100000) (j : Fin 128) : idx_main_v52 (ix2 p j) = ix2 (0 : Fin 1) j :=
  funext fun a => Fin.ext (by match a with | ⟨0, _⟩ => rfl | ⟨1, _⟩ => rfl)

/-! ## The two layers -/

/-- The reference's first layer with its rectifier is the rectified layer of its neighbour sums, reciprocal
    in-degrees, input features, transposed weights and bias row. -/
theorem layer1_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v33 (F := Ideal) x0 x1 x2 x3 x4
      = Cert.Sage.layer true (n := 100000) (val_main_v22 (F := Ideal) x0 x1) (val_main_v12 (F := Ideal) x1) x0
          (val_main_v25 (F := Ideal) x2) (val_main_v27 (F := Ideal) x3) (val_main_v30 (F := Ideal) x4) := by
  funext i
  obtain ⟨p, j, rfl⟩ : ∃ (p : Fin 100000) (j : Fin 128), i = ix2 p j := ⟨i 0, i 1, eq_ix2 i⟩
  rw [Cert.Sage.layer_true_apply, val_main_v33_apply, val_main_v32_apply, val_main_v29_apply, val_main_v26_apply,
    val_main_v28_apply, val_main_v31_apply, val_main_call0_v0_apply, val_main_call0_cst_apply]
  unfold Cert.Sage.entry
  simp only [Ideal.addf_def, Ideal.maximumf_def, Ideal.ofBits_def, Ideal.ofBits_zero_f32]
  refine congrArg (fun z : EReal => max z 0) ?_
  refine congrArg₂ (· + ·) (congrArg₂ (· + ·) (Finset.sum_congr rfl fun k _ => ?_) (Finset.sum_congr rfl fun k _ => ?_)) ?_
  · rw [lidx26, ridx26, val_main_v24_apply, val_main_v23_apply, idx23, Ideal.mulf_def]
  · rw [lidx28, ridx28]
  · rw [idx31]

/-- The reference's second layer is the layer of ITS neighbour sums, the same reciprocal in-degrees, the first
    layer's output, and its own transposed weights and bias row. -/
theorem layer2_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v53 (F := Ideal) x0 x1 x2 x3 x4 x5 x6 x7
      = Cert.Sage.layer false (n := 100000) (val_main_v43 (F := Ideal) x0 x1 x2 x3 x4) (val_main_v12 (F := Ideal) x1)
          (val_main_v33 (F := Ideal) x0 x1 x2 x3 x4) (val_main_v46 (F := Ideal) x5) (val_main_v48 (F := Ideal) x6)
          (val_main_v51 (F := Ideal) x7) := by
  funext i
  obtain ⟨p, j, rfl⟩ : ∃ (p : Fin 100000) (j : Fin 128), i = ix2 p j := ⟨i 0, i 1, eq_ix2 i⟩
  rw [Cert.Sage.layer_false_apply, val_main_v53_apply, val_main_v50_apply, val_main_v47_apply, val_main_v49_apply,
    val_main_v52_apply]
  unfold Cert.Sage.entry
  simp only [Ideal.addf_def]
  refine congrArg₂ (· + ·) (congrArg₂ (· + ·) (Finset.sum_congr rfl fun k _ => ?_) (Finset.sum_congr rfl fun k _ => ?_)) ?_
  · rw [lidx47, ridx47, val_main_v45_apply, val_main_v44_apply, idx44, Ideal.mulf_def]
  · rw [lidx49, ridx49]
  · rw [idx52]

end Cert.ReferenceIdeal.Layers

end
-- ==== Proof.RefNet.lean ====
/-
  The reference's result is the network.

  Its first layer with the rectifier is `hidden` of the arguments, its second layer's neighbour sums are the shared
  aggregation of that, and its result is the plain layer over them: `net`.
-/
import proofs.«142617_j52561809768660_1_alg».proof.Proof.NetTerm
import proofs.«142617_j52561809768660_1_alg».proof.Proof.RefLayers

set_option maxRecDepth 16384

noncomputable section

namespace Cert.ReferenceIdeal.Layers

open Cert.ReferenceIdeal Cert.ReferenceIdeal.Gen Cert.ReferenceIdeal.Read Idealize.ShloMosaic Idealize.ShloMosaic.ValueIdx

theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v33 (F := Ideal) x0 x1 x2 x3 x4 = hidden x0 x1 x2 x3 x4 := by
  rw [layer1_eq, agg1_eq]
  unfold hidden
  rfl

/-- The reference's result is the network. -/
theorem result_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v53 (F := Ideal) x0 x1 x2 x3 x4 x5 x6 x7 = net x0 x1 x2 x3 x4 x5 x6 x7 := by
  rw [layer2_eq, agg2_eq, hidden_eq]
  unfold net
  rfl

end Cert.ReferenceIdeal.Layers

end
-- ==== Proof.lean ====
/-
  A two-layer mean-aggregating graph convolution: the kernel program against its plain reference.

  Each layer takes the neighbour sums of its input features (rows gathered at the edges' sources and scatter-added at
  the edges' destinations), scales every node's row by the reciprocal of its in-degree (at least one), multiplies by
  one weight matrix, adds the input features times another and a bias, and — after the first layer only — clips at
  zero. The kernel program computes the aggregation and the in-degrees on the host exactly as the reference does and
  each layer's dense part on a grid of twenty blocks of 5000 nodes; the reference computes everything on the host.

  On the extended reals the roundings to bf16 are the identity and a matrix product is the plain sum over the 128
  input features, in the same order on both sides, so both programs end at ONE term of the arguments, `net`: the
  second layer over the neighbour sums of the first layer's output. No law beyond that reading is used — neither
  distributivity nor cancellation — so the inputs' finiteness is never opened.

  The three frames are the generated ones (the reference's is its generated run with the result dropped); the ideal
  pass rewrote nothing, so the kernel's idealization is its own text; the value claim posts both runs at `net`.
-/
import proofs.«142617_j52561809768660_1_alg».proof.Defs
import proofs.«142617_j52561809768660_1_alg».proof.Proof.Gen.Kernel
import proofs.«142617_j52561809768660_1_alg».proof.Proof.Gen.Kernel.Frame
import proofs.«142617_j52561809768660_1_alg».proof.Proof.Gen.KernelIdeal
import proofs.«142617_j52561809768660_1_alg».proof.Proof.Gen.KernelIdeal.Frame
import proofs.«142617_j52561809768660_1_alg».proof.Proof.Gen.ReferenceIdeal
import proofs.«142617_j52561809768660_1_alg».proof.Proof.Gen.Pre_finite_inputs
import proofs.«142617_j52561809768660_1_alg».proof.Proof.Gen.ReferenceIdeal.Run
import proofs.«142617_j52561809768660_1_alg».proof.Proof.Gen.ReferenceIdeal.Read
import proofs.«142617_j52561809768660_1_alg».proof.Proof.KernelRun
import proofs.«142617_j52561809768660_1_alg».proof.Proof.KernelValue
import proofs.«142617_j52561809768660_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the network `net` of the arguments in their
    result arrays: the kernel's by the two grids read back through the host operations around them, the reference's by
    its run read one operation at a time. -/
theorem algebraic : Cert.algebraic_KernelIdeal_ReferenceIdeal := by
  intro m ρ m' ρ' _ hagree
  refine ⟨fun c => Cert.ReferenceIdeal.Layers.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.NetValue.result_eq m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v53_eq, Cert.ReferenceIdeal.Layers.result_eq, a0, a1, a2, a3, a4, a5, a6, a7]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
